-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S64x2048x16 : Shape := ⟨3, ![64, 2048, 16]⟩
abbrev S100000x64 : Shape := ⟨2, ![100000, 64]⟩
abbrev S1024x10 : Shape := ⟨2, ![1024, 10]⟩
abbrev S10 : Shape := ⟨1, ![10]⟩
abbrev S_ : Shape := ⟨0, ![]⟩

class Facts : Prop where
  bcast_S_S64x2048x16 : S_.BroadcastsInDim S64x2048x16 (![] : Fin 0 → Fin S64x2048x16.rank)
  reducesTo_S64x2048x16_S_d0_1_2 : S64x2048x16.ReducesTo [0, 1, 2] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S1024x10 : S_.BroadcastsInDim S1024x10 (![] : Fin 0 → Fin S1024x10.rank)
  reducesTo_S1024x10_S_d0_1 : S1024x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  main_v18

def fn {F : FTy → Type} [FloatOps F] (main_arg0 : IVec S64x2048 32) (main_arg1 : FVec F S64x2048x16 .f32) (main_arg2 : FVec F S100000x64 .f32) (main_arg3 : FVec F S1024x10 .f32) (main_arg4 : FVec F S10 .f32) : IVec S_ 1 :=
  let main_v0 : FVec F S64x2048x16 .f32 := Host.absf main_arg1
  let main_cst : FVec F S_ .f32 := constant S_ .f32 0x7F800000#32
  let main_v1 : FVec F S64x2048x16 .f32 := broadcastInDim S64x2048x16 ![] bcast_S_S64x2048x16 main_cst
  let main_v2 : IVec S64x2048x16 1 := cmpf .olt main_v0 main_v1
  let main_c : IVec S_ 1 := constantI S_ 1 1#1
  let main_v3 : IVec S_ 1 := (fun x v => Host.reduce IntOp.andi x v reducesTo_S64x2048x16_S_d0_1_2 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1024x10 .f32 := Host.absf main_arg3
  let main_cst_2 : FVec F S_ .f32 := constant S_ .f32 0x7F800000#32
  let main_v10 : FVec F S1024x10 .f32 := broadcastInDim S1024x10 ![] bcast_S_S1024x10 main_cst_2
  let main_v11 : IVec S1024x10 1 := cmpf .olt main_v9 main_v10
  let main_c_3 : IVec S_ 1 := constantI S_ 1 1#1
  let main_v12 : IVec S_ 1 := (fun x v => Host.reduce IntOp.andi x v reducesTo_S1024x10_S_d0_1 h_S_) main_v11 main_c_3
  let main_v13 : IVec S_ 1 := andi main_v8 main_v12
  let main_v14 : FVec F S10 .f32 := Host.absf main_arg4
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_v13 main_v16
-- ==== Kernel.lean ====
abbrev S64x2048 : Shape := ⟨2, ![64, 2048]⟩
abbrev S64x2048x16 : Shape := ⟨3, ![64, 2048, 16]⟩
abbrev S100000x64 : Shape := ⟨2, ![100000, 64]⟩
abbrev S1024x10 : Shape := ⟨2, ![1024, 10]⟩
abbrev S10 : Shape := ⟨1, ![10]⟩
abbrev S_ : Shape := ⟨0, ![]⟩
abbrev S64x2048x1 : Shape := ⟨3, ![64, 2048, 1]⟩
abbrev S64x2048x64 : Shape := ⟨3, ![64, 2048, 64]⟩
abbrev S64x16x10 : Shape := ⟨3, ![64, 16, 10]⟩
abbrev S16x64x10 : Shape := ⟨3, ![16, 64, 10]⟩
abbrev S64x10 : Shape := ⟨2, ![64, 10]⟩
abbrev S8x2048x64 : Shape := ⟨3, ![8, 2048, 64]⟩
abbrev S8x2048x16 : Shape := ⟨3, ![8, 2048, 16]⟩
abbrev S8x10 : Shape := ⟨2, ![8, 10]⟩
abbrev S8x16x64 : Shape := ⟨3, ![8, 16, 64]⟩
abbrev S1x2048x64 : Shape := ⟨3, ![1, 2048, 64]⟩
abbrev S2048x64 : Shape := ⟨2, ![2048, 64]⟩
abbrev S1x2048x16 : Shape := ⟨3, ![1, 2048, 16]⟩
abbrev S2048x16 : Shape := ⟨2, ![2048, 16]⟩
abbrev S2048x16x1 : Shape := ⟨3, ![2048, 16, 1]⟩
abbrev S2048x1x64 : Shape := ⟨3, ![2048, 1, 64]⟩
abbrev S2048x16x64 : Shape := ⟨3, ![2048, 16, 64]⟩
abbrev S16x64 : Shape := ⟨2, ![16, 64]⟩
abbrev S1x16x64 : Shape := ⟨3, ![1, 16, 64]⟩
abbrev S8x1024 : Shape := ⟨2, ![8, 1024]⟩
abbrev S1x10 : Shape := ⟨2, ![1, 10]⟩

abbrev nBuf : Space → Nat
  | .hbm => 18
  | .vmem => 9
  | .smem => 0
  | _ => 0

abbrev bufTy : (tb : Table) → Fin (tcTables nBuf tb) → BufTy
  | .hbm, ⟨0, _⟩ => ⟨S64x2048, .i32⟩
  | .hbm, ⟨1, _⟩ => ⟨S64x2048x16, .f32⟩
  | .hbm, ⟨2, _⟩ => ⟨S100000x64, .f32⟩
  | .hbm, ⟨3, _⟩ => ⟨S1024x10, .f32⟩
  | .hbm, ⟨4, _⟩ => ⟨S10, .f32⟩
  | .hbm, ⟨5, _⟩ => ⟨S_, .i32⟩
  | .hbm, ⟨6, _⟩ => ⟨S64x2048, .i32⟩
  | .hbm, ⟨7, _⟩ => ⟨S64x2048, .i1⟩
  | .hbm, ⟨8, _⟩ => ⟨S_, .i32⟩
  | .hbm, ⟨9, _⟩ => ⟨S64x2048, .i32⟩
  | .hbm, ⟨10, _⟩ => ⟨S64x2048, .i32⟩
  | .hbm, ⟨11, _⟩ => ⟨S64x2048, .i32⟩
  | .hbm, ⟨12, _⟩ => ⟨S64x2048x1, .i32⟩
  | .hbm, ⟨13, _⟩ => ⟨S64x2048x64, .f32⟩
  | .hbm, ⟨14, _⟩ => ⟨S64x16x10, .f32⟩
  | .hbm, ⟨15, _⟩ => ⟨S16x64x10, .f32⟩
  | .hbm, ⟨16, _⟩ => ⟨S1024x10, .f32⟩
  | .hbm, ⟨17, _⟩ => ⟨S64x10, .f32⟩
  | .local _ .vmem, ⟨0, _⟩ => ⟨S8x2048x64, .f32⟩
  | .local _ .vmem, ⟨1, _⟩ => ⟨S8x2048x64, .f32⟩
  | .local _ .vmem, ⟨2, _⟩ => ⟨S8x2048x16, .f32⟩
  | .local _ .vmem, ⟨3, _⟩ => ⟨S8x2048x16, .f32⟩
  | .local _ .vmem, ⟨4, _⟩ => ⟨S1024x10, .f32⟩
  | .local _ .vmem, ⟨5, _⟩ => ⟨S10, .f32⟩
  | .local _ .vmem, ⟨6, _⟩ => ⟨S8x10, .f32⟩
  | .local _ .vmem, ⟨7, _⟩ => ⟨S8x10, .f32⟩
  | .local _ .vmem, ⟨8, _⟩ => ⟨S8x16x64, .f32⟩
  | _, _ => ⟨S64x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  shapeCasts_S1024x10_S64x16x10 : S1024x10.ShapeCasts S64x16x10
  transposes_S64x16x10_S16x64x10_1_0_2 : S64x16x10.Transposes [1, 0, 2] S16x64x10
  shapeCasts_S16x64x10_S1024x10 : S16x64x10.ShapeCasts S1024x10
  inb_S8x2048x64_S1x2048x64_0_0_0 : ∀ a, (![0, 0, 0] : Fin 3 → Nat) a + S1x2048x64.size a ≤ S8x2048x64.size a
  h_S1x2048x64 : 0 < S1x2048x64.numel
  shapeCasts_S1x2048x64_S2048x64 : S1x2048x64.ShapeCasts S2048x64
  inb_S8x2048x16_S1x2048x16_0_0_0 : ∀ a, (![0, 0, 0] : Fin 3 → Nat) a + S1x2048x16.size a ≤ S8x2048x16.size a
  h_S1x2048x16 : 0 < S1x2048x16.numel
  shapeCasts_S1x2048x16_S2048x16 : S1x2048x16.ShapeCasts S2048x16
  shapeCasts_S2048x16_S2048x16x1 : S2048x16.ShapeCasts S2048x16x1
  shapeCasts_S2048x64_S2048x1x64 : S2048x64.ShapeCasts S2048x1x64
  broadcasts_S2048x16x1_S2048x16x64 : S2048x16x1.Broadcasts S2048x16x64
  broadcasts_S2048x1x64_S2048x16x64 : S2048x1x64.Broadcasts S2048x16x64
  reduces_S2048x16x64_S16x64 : S2048x16x64.Reduces [0] S16x64
  inb_S8x16x64_S1x16x64_0_0_0 : ∀ a, (![0, 0, 0] : Fin 3 → Nat) a + S1x16x64.size a ≤ S8x16x64.size a
  h_S1x16x64 : 0 < S1x16x64.numel
  shapeCasts_S1x16x64_S16x64 : S1x16x64.ShapeCasts S16x64
  shapeCasts_S16x64_S1x16x64 : S16x64.ShapeCasts S1x16x64
  inb_S8x2048x64_S1x2048x64_1_0_0 : ∀ a, (![1, 0, 0] : Fin 3 → Nat) a + S1x2048x64.size a ≤ S8x2048x64.size a
  inb_S8x2048x16_S1x2048x16_1_0_0 : ∀ a, (![1, 0, 0] : Fin 3 → Nat) a + S1x2048x16.size a ≤ S8x2048x16.size a
  inb_S8x16x64_S1x16x64_1_0_0 : ∀ a, (![1, 0, 0] : Fin 3 → Nat) a + S1x16x64.size a ≤ S8x16x64.size a
  inb_S8x2048x64_S1x2048x64_2_0_0 : ∀ a, (![2, 0, 0] : Fin 3 → Nat) a + S1x2048x64.size a ≤ S8x2048x64.size a
  inb_S8x2048x16_S1x2048x16_2_0_0 : ∀ a, (![2, 0, 0] : Fin 3 → Nat) a + S1x2048x16.size a ≤ S8x2048x16.size a
  inb_S8x16x64_S1x16x64_2_0_0 : ∀ a, (![2, 0, 0] : Fin 3 → Nat) a + S1x16x64.size a ≤ S8x16x64.size a
  inb_S8x2048x64_S1x2048x64_3_0_0 : ∀ a, (![3, 0, 0] : Fin 3 → Nat) a + S1x2048x64.size a ≤ S8x2048x64.size a
  inb_S8x2048x16_S1x2048x16_3_0_0 : ∀ a, (![3, 0, 0] : Fin 3 → Nat) a + S1x2048x16.size a ≤ S8x2048x16.size a
  inb_S8x16x64_S1x16x64_3_0_0 : ∀ a, (![3, 0, 0] : Fin 3 → Nat) a + S1x16x64.size a ≤ S8x16x64.size a
  inb_S8x2048x64_S1x2048x64_4_0_0 : ∀ a, (![4, 0, 0] : Fin 3 → Nat) a + S1x2048x64.size a ≤ S8x2048x64.size a
  inb_S8x2048x16_S1x2048x16_4_0_0 : ∀ a, (![4, 0, 0] : Fin 3 → Nat) a + S1x2048x16.size a ≤ S8x2048x16.size a
  inb_S8x16x64_S1x16x64_4_0_0 : ∀ a, (![4, 0, 0] : Fin 3 → Nat) a + S1x16x64.size a ≤ S8x16x64.size a
  inb_S8x2048x64_S1x2048x64_5_0_0 : ∀ a, (![5, 0, 0] : Fin 3 → Nat) a + S1x2048x64.size a ≤ S8x2048x64.size a
  inb_S8x2048x16_S1x2048x16_5_0_0 : ∀ a, (![5, 0, 0] : Fin 3 → Nat) a + S1x2048x16.size a ≤ S8x2048x16.size a
  inb_S8x16x64_S1x16x64_5_0_0 : ∀ a, (![5, 0, 0] : Fin 3 → Nat) a + S1x16x64.size a ≤ S8x16x64.size a
  inb_S8x2048x64_S1x2048x64_6_0_0 : ∀ a, (![6, 0, 0] : Fin 3 → Nat) a + S1x2048x64.size a ≤ S8x2048x64.size a
  inb_S8x2048x16_S1x2048x16_6_0_0 : ∀ a, (![6, 0, 0] : Fin 3 → Nat) a + S1x2048x16.size a ≤ S8x2048x16.size a
  inb_S8x16x64_S1x16x64_6_0_0 : ∀ a, (![6, 0, 0] : Fin 3 → Nat) a + S1x16x64.size a ≤ S8x16x64.size a
  inb_S8x2048x64_S1x2048x64_7_0_0 : ∀ a, (![7, 0, 0] : Fin 3 → Nat) a + S1x2048x64.size a ≤ S8x2048x64.size a
  inb_S8x2048x16_S1x2048x16_7_0_0 : ∀ a, (![7, 0, 0] : Fin 3 → Nat) a + S1x2048x16.size a ≤ S8x2048x16.size a
  inb_S8x16x64_S1x16x64_7_0_0 : ∀ a, (![7, 0, 0] : Fin 3 → Nat) a + S1x16x64.size a ≤ S8x16x64.size a
  inb_S8x16x64_S8x16x64_0_0_0 : ∀ a, (![0, 0, 0] : Fin 3 → Nat) a + S8x16x64.size a ≤ S8x16x64.size a
  h_S8x16x64 : 0 < S8x16x64.numel
  shapeCasts_S8x16x64_S8x1024 : S8x16x64.ShapeCasts S8x1024
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S10_S10_0 : ∀ a, (![0] : Fin 1 → Nat) a + S10.size a ≤ S10.size a
  h_S10 : 0 < S10.numel
  shapeCasts_S10_S1x10 : S10.ShapeCasts S1x10
  broadcasts_S1x10_S8x10 : S1x10.Broadcasts S8x10
  inb_S8x10_S8x10_0_0 : ∀ a, (![0, 0] : Fin 2 → Nat) a + S8x10.size a ≤ S8x10.size a
  h_S8x10 : 0 < S8x10.numel
  gather_S100000x64_S64x2048x1_S64x2048x64_2_0_n_n_0_2_164_wf : GatherDims.WF S100000x64 S64x2048x1 S64x2048x64 [2] [0] [] [0] [] 2 ![1, 64]
  dot_S8x1024_S1024x10_S8x10_1_0_0_1_n_n_wf : DotDims.WF S8x1024 S1024x10 S8x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x64.size a ≤ S64x2048x64.size a
  hwx0_0 : ∀ i : grid0.Coords, EltTy.bits .f32 = 32 ∨ (Rect.block (s := S64x2048x64) S8x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048x16.size a ≤ S64x2048x16.size a
  hwx0_1 : ∀ i : grid0.Coords, EltTy.bits .f32 = 32 ∨ (Rect.block (s := S64x2048x16) S8x2048x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x10.size a ≤ S1024x10.size a
  hwx0_2 : ∀ i : grid0.Coords, EltTy.bits .f32 = 32 ∨ (Rect.block (s := S1024x10) S1024x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10.size a ≤ S10.size a
  hwx0_3 : ∀ i : grid0.Coords, EltTy.bits .f32 = 32 ∨ (Rect.block (s := S10) S10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x10.size a ≤ S64x10.size a
  hwx0_4 : ∀ i : grid0.Coords, EltTy.bits .f32 = 32 ∨ (Rect.block (s := S64x10) S8x10.size (cc0_transform_4 i) (hinb0_4 i)).WholeWords (EltTy.packing .f32)

variable [Facts₀]

def gather_S100000x64_S64x2048x1_S64x2048x64_2_0_n_n_0_2_164 : GatherDims S100000x64 S64x2048x1 S64x2048x64 where
  offsetDims := [2]
  collapsedSliceDims := [0]
  operandBatchingDims := []
  startIndicesBatchingDims := []
  startIndexMap := [0]
  indexVectorDim := 2
  sliceSizes := ![1, 64]
  wf := gather_S100000x64_S64x2048x1_S64x2048x64_2_0_n_n_0_2_164_wf
def dot_S8x1024_S1024x10_S8x10_1_0_0_1_n_n : DotDims S8x1024 S1024x10 S8x10 where
  lhsContracting := [1]
  rhsContracting := [0]
  lhsNonContracting := [0]
  rhsNonContracting := [1]
  lhsBatch := []
  rhsBatch := []
  wf := dot_S8x1024_S1024x10_S8x10_1_0_0_1_n_n_wf

abbrev win0_0 : Pipeline.Window sig grid0 :=
  Pipeline.Window.ofSpec (Memref.whole main_v6) S8x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S8x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x2048 : Shape := ⟨2, ![64, 2048]⟩
abbrev S64x2048x16 : Shape := ⟨3, ![64, 2048, 16]⟩
abbrev S100000x64 : Shape := ⟨2, ![100000, 64]⟩
abbrev S1024x10 : Shape := ⟨2, ![1024, 10]⟩
abbrev S10 : Shape := ⟨1, ![10]⟩
abbrev S_ : Shape := ⟨0, ![]⟩
abbrev S64x2048x1 : Shape := ⟨3, ![64, 2048, 1]⟩
abbrev S64x2048x64 : Shape := ⟨3, ![64, 2048, 64]⟩
abbrev S64x2048x64x1 : Shape := ⟨4, ![64, 2048, 64, 1]⟩
abbrev S64x2048x1x16 : Shape := ⟨4, ![64, 2048, 1, 16]⟩
abbrev S64x2048x64x16 : Shape := ⟨4, ![64, 2048, 64, 16]⟩
abbrev S64x64x16 : Shape := ⟨3, ![64, 64, 16]⟩
abbrev S64x1024 : Shape := ⟨2, ![64, 1024]⟩
abbrev S64x10 : Shape := ⟨2, ![64, 10]⟩
abbrev S1x10 : Shape := ⟨2, ![1, 10]⟩

abbrev nBuf : Space → Nat
  | .hbm => 26
  | .vmem => 0
  | .smem => 0
  | _ => 0

abbrev bufTy : (tb : Table) → Fin (tcTables nBuf tb) → BufTy
  | .hbm, ⟨0, _⟩ => ⟨S64x2048, .i32⟩
  | .hbm, ⟨1, _⟩ => ⟨S64x2048x16, .f32⟩
  | .hbm, ⟨2, _⟩ => ⟨S100000x64, .f32⟩
  | .hbm, ⟨3, _⟩ => ⟨S1024x10, .f32⟩
  | .hbm, ⟨4, _⟩ => ⟨S10, .f32⟩
  | .hbm, ⟨5, _⟩ => ⟨S_, .i32⟩
  | .hbm, ⟨6, _⟩ => ⟨S64x2048, .i32⟩
  | .hbm, ⟨7, _⟩ => ⟨S64x2048, .i1⟩
  | .hbm, ⟨8, _⟩ => ⟨S_, .i32⟩
  | .hbm, ⟨9, _⟩ => ⟨S64x2048, .i32⟩
  | .hbm, ⟨10, _⟩ => ⟨S64x2048, .i32⟩
  | .hbm, ⟨11, _⟩ => ⟨S64x2048, .i32⟩
  | .hbm, ⟨12, _⟩ => ⟨S64x2048x1, .i32⟩
  | .hbm, ⟨13, _⟩ => ⟨S64x2048x64, .f32⟩
  | .hbm, ⟨14, _⟩ => ⟨S64x2048x64x1, .f32⟩
  | .hbm, ⟨15, _⟩ => ⟨S64x2048x1x16, .f32⟩
  | .hbm, ⟨16, _⟩ => ⟨S64x2048x64x16, .f32⟩
  | .hbm, ⟨17, _⟩ => ⟨S64x2048x64x16, .f32⟩
  | .hbm, ⟨18, _⟩ => ⟨S64x2048x64x16, .f32⟩
  | .hbm, ⟨19, _⟩ => ⟨S_, .f32⟩
  | .hbm, ⟨20, _⟩ => ⟨S64x64x16, .f32⟩
  | .hbm, ⟨21, _⟩ => ⟨S64x1024, .f32⟩
  | .hbm, ⟨22, _⟩ => ⟨S64x10, .f32⟩
  | .hbm, ⟨23, _⟩ => ⟨S1x10, .f32⟩
  | .hbm, ⟨24, _⟩ => ⟨S64x10, .f32⟩
  | .hbm, ⟨25, _⟩ => ⟨S64x10, .f32⟩
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x64_S64x2048x64x1_0_1_2 : S64x2048x64.BroadcastsInDim S64x2048x64x1 (![0, 1, 2] : Fin 3 → Fin S64x2048x64x1.rank)
  bcast_S64x2048x16_S64x2048x1x16_0_1_3 : S64x2048x16.BroadcastsInDim S64x2048x1x16 (![0, 1, 3] : Fin 3 → Fin S64x2048x1x16.rank)
  bcast_S64x2048x64x1_S64x2048x64x16_0_1_2_3 : S64x2048x64x1.BroadcastsInDim S64x2048x64x16 (![0, 1, 2, 3] : Fin 4 → Fin S64x2048x64x16.rank)
  bcast_S64x2048x1x16_S64x2048x64x16_0_1_2_3 : S64x2048x1x16.BroadcastsInDim S64x2048x64x16 (![0, 1, 2, 3] : Fin 4 → Fin S64x2048x64x16.rank)
  reducesTo_S64x2048x64x16_S64x64x16_d1 : S64x2048x64x16.ReducesTo [1] S64x64x16
  h_S_ : 0 < S_.numel
  shapeCasts_S64x64x16_S64x1024 : S64x64x16.ShapeCasts S64x1024
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S100000x64_S64x2048x1_S64x2048x64_2_0_n_n_0_2_164_wf : GatherDims.WF S100000x64 S64x2048x1 S64x2048x64 [2] [0] [] [0] [] 2 ![1, 64]
  dot_S64x1024_S1024x10_S64x10_1_0_0_1_n_n_wf : DotDims.WF S64x1024 S1024x10 S64x10 [1] [0] [0] [1] [] []

variable [Facts₀]

def gather_S100000x64_S64x2048x1_S64x2048x64_2_0_n_n_0_2_164 : GatherDims S100000x64 S64x2048x1 S64x2048x64 where
  offsetDims := [2]
  collapsedSliceDims := [0]
  operandBatchingDims := []
  startIndicesBatchingDims := []
  startIndexMap := [0]
  indexVectorDim := 2
  sliceSizes := ![1, 64]
  wf := gather_S100000x64_S64x2048x1_S64x2048x64_2_0_n_n_0_2_164_wf
def dot_S64x1024_S1024x10_S64x10_1_0_0_1_n_n : DotDims S64x1024 S1024x10 S64x10 where
  lhsContracting := [1]
  rhsContracting := [0]
  lhsNonContracting := [0]
  rhsNonContracting := [1]
  lhsBatch := []
  rhsBatch := []
  wf := dot_S64x1024_S1024x10_S64x10_1_0_0_1_n_n_wf

class Facts : Prop extends Facts₀ where

variable [Facts]
-- ==== Proof.Spec.lean ====
/-
  The function both programs compute, index by index, on the extended reals.

  For a batch row `b` and an output column `o`:
    out b o = (∑ over the 1024 pairs (e, f) of  pooled b e f * w (16 * e + f) o) + bias o,
  where  pooled b e f  is the maximum, started from the value of the word both programs start from (−∞), over the
  2048 cells `n` of  emb b n e * feat b n f.

  One program numbers the pair (e, f) as `16 * e + f` (e-major), the other as `64 * f + e` (f-major) and reads the
  weight matrix through the matching permutation of its rows. A finite sum does not depend on the numbering of its
  terms, so the two forms are equal (`fMajor_eq`); no finiteness of any entry is needed for that.
-/
import Idealize.ShloMosaic.PureOps.Ideal
import Idealize.ShloMosaic.Lib.ValueIdx

noncomputable section

namespace PoolDense

open Idealize.ShloMosaic Idealize.ShloMosaic.ValueIdx

/-- The value of the word both maxima start from. -/
abbrev start : EReal := Ideal.ofBits .f32 0xFF800000#32

/-- The pooled product at batch row `b`, embedding coordinate `e`, feature coordinate `f`: the fold of `max`, from the
    start value, over the cells `n` of `emb (b, n, e) * feat (b, n, f)`. -/
def pooled (E : (⟨3, ![64, 2048, 64]⟩ : Shape).Idx → EReal) (X : (⟨3, ![64, 2048, 16]⟩ : Shape).Idx → EReal)
    (b : Fin 64) (e : Fin 64) (f : Fin 16) : EReal :=
  (Finset.univ : Finset (Fin 2048)).fold max start (fun n => E (ix3 b n e) * X (ix3 b n f))

/-- The pair numbered e-major, `j = 16 * e + f`: its embedding coordinate, -/
abbrev eOf (j : Fin 1024) : Fin 64 := ⟨j.val / 16, by have := j.isLt; omega⟩
/-- and its feature coordinate. -/
abbrev fOf (j : Fin 1024) : Fin 16 := ⟨j.val % 16, Nat.mod_lt _ (by decide)⟩

/-- The pair numbered f-major, `k = 64 * f + e`: its embedding coordinate, -/
abbrev eOf' (k : Fin 1024) : Fin 64 := ⟨k.val % 64, Nat.mod_lt _ (by decide)⟩
/-- and its feature coordinate. -/
abbrev fOf' (k : Fin 1024) : Fin 16 := ⟨k.val / 64, by have := k.isLt; omega⟩

/-- The result: the pooled products against the weight rows, pairs numbered e-major, plus the bias. -/
def G (E : (⟨3, ![64, 2048, 64]⟩ : Shape).Idx → EReal) (X : (⟨3, ![64, 2048, 16]⟩ : Shape).Idx → EReal)
    (W : (⟨2, ![1024, 10]⟩ : Shape).Idx → EReal) (B : (⟨1, ![10]⟩ : Shape).Idx → EReal) :
    (⟨2, ![64, 10]⟩ : Shape).Idx → EReal :=
  fun i => (∑ j : Fin 1024, pooled E X (i 0) (eOf j) (fOf j) * W (ix2 j (i 1))) + B (ix1 (i 1))

/-- The renumbering of the pairs: the f-major number `64 * f + e` to the e-major number `16 * e + f`. -/
def renumber : Fin 1024 ≃ Fin 1024 where
  toFun k := ⟨k.val % 64 * 16 + k.val / 64, by have := k.isLt; omega⟩
  invFun j := ⟨j.val % 16 * 64 + j.val / 16, by have := j.isLt; omega⟩
  left_inv k := Fin.ext (by
    show (k.val % 64 * 16 + k.val / 64) % 16 * 64 + (k.val % 64 * 16 + k.val / 64) / 16 = k.val
    have := k.isLt; omega)
  right_inv j := Fin.ext (by
    show (j.val % 16 * 64 + j.val / 16) % 64 * 16 + (j.val % 16 * 64 + j.val / 16) / 64 = j.val
    have := j.isLt; omega)

theorem renumber_val (k : Fin 1024) : (renumber k).val = k.val % 64 * 16 + k.val / 64 := rfl

theorem eOf_renumber (k : Fin 1024) : eOf (renumber k) = eOf' k :=
  Fin.ext (by show (k.val % 64 * 16 + k.val / 64) / 16 = k.val % 64; have := k.isLt; omega)

theorem fOf_renumber (k : Fin 1024) : fOf (renumber k) = fOf' k :=
  Fin.ext (by show (k.val % 64 * 16 + k.val / 64) % 16 = k.val / 64; have := k.isLt; omega)

/-- The same result with the pairs numbered f-major and the weight row read through the renumbering: a finite sum
    re-indexed along a bijection. -/
theorem fMajor_eq (E : (⟨3, ![64, 2048, 64]⟩ : Shape).Idx → EReal) (X : (⟨3, ![64, 2048, 16]⟩ : Shape).Idx → EReal)
    (W : (⟨2, ![1024, 10]⟩ : Shape).Idx → EReal) (B : (⟨1, ![10]⟩ : Shape).Idx → EReal) (b : Fin 64) (o : Fin 10) :
    (∑ k : Fin 1024, pooled E X b (eOf' k) (fOf' k) * W (ix2 (renumber k) o)) + B (ix1 o) = G E X W B (ix2 b o) := by
  show _ = (∑ j : Fin 1024, pooled E X b (eOf j) (fOf j) * W (ix2 j o)) + B (ix1 o)
  rw [← Equiv.sum_comp renumber (fun j => pooled E X b (eOf j) (fOf j) * W (ix2 j o))]
  refine congrArg (· + B (ix1 o)) (Finset.sum_congr rfl fun k _ => ?_)
  rw [eOf_renumber, fOf_renumber]

end PoolDense

end
-- ==== Proof.LibPoolLayout.lean ====
/-
  Reductions and layout operations of a POOLING body, read at coordinates, at every extent.

  A body that pools a stack of matrices over its leading axis and then flattens what is left for a matrix product
  meets these forms; none computes anything but the maximum, and the lemmas name, by coordinates, which entries
  each result reads:
    • a maximum along the LEADING axis of an `[n, a, b]` array of extended reals, from the accumulator's value:
      entry `(r, s)` is the fold of `max` over `k` of the entries `(k, r, s)` (`leadMax_apply`);
    • the host's one-operand reduce with a maximum body along axis 1 of a `[p, n, a, b]` array: entry `(q, r, s)` is
      the fold of `max`, from the initial value's one element, over `k` of the entries `(q, k, r, s)`
      (`hostMaxAxis1_apply`) — the same fold;
    • the two TRAILING axes merged, `[a, b, n] → [a, m]` with `m = b·n`: column `j = s·n + k` of row `r` is entry
      `(r, s, k)` (`shapeCast_abn_am_apply`; the flat column is passed with its equation, so that a literal extent
      such as `1024` need not be recognised as a product);
    • the two leading axes of a rank-3 array exchanged (permutation `[1, 0, 2]`): entry `(s, r, k)` is entry
      `(r, s, k)` of the operand (`transpose_ix3_102_apply`).
-/
import Idealize.ShloMosaic.Lib.Pipeline.Value
import Idealize.ShloMosaic.Lib.ValueIdx
import Idealize.ShloMosaic.PureOps.Ideal.Laws

namespace Cert.PoolLayout

open Idealize.ShloMosaic Idealize.ShloMosaic.ValueIdx

variable {α : Type}

/-- A maximum along the leading axis of an `[n, a, b]` array of extended reals reads, at `(r, s)`, the fold of `max`,
    from the value the accumulator's word denotes, over `k` of the entries `(k, r, s)`. -/
theorem leadMax_apply {n a b : ℕ} (src : FVec Ideal ⟨3, ![n, a, b]⟩ .f32) (acc : BitVec 32)
    (h : (⟨3, ![n, a, b]⟩ : Shape).Reduces [0] ⟨2, ![a, b]⟩) (hφ : FKind.Formats .f32)
    (hacc : acc = FKind.maximumf.neutral .f32 hφ) (r : Fin a) (s : Fin b) :
    multiReduction .maximumf [0] ⟨2, ![a, b]⟩ src acc h hφ hacc (ix2 r s)
      = (Finset.univ : Finset (Fin n)).fold max (Ideal.ofBits .f32 acc) (fun k => src (ix3 k r s)) := by
  refine (Ideal.multiReduction_maximumf_single src acc h hφ hacc (ix2 r s)).trans ?_
  show (Finset.univ : Finset (Fin n)).fold max (Ideal.ofBits .f32 acc) (src ∘ h.lift (ix2 r s)) = _
  refine congrArg (fun f => Finset.fold max (Ideal.ofBits .f32 acc) f (Finset.univ : Finset (Fin n)))
    (funext fun k => congrArg src (funext fun c => Fin.ext ?_))
  match c with
  | ⟨0, _⟩ => rfl
  | ⟨1, _⟩ => rfl
  | ⟨2, _⟩ => rfl

/-- The host's one-operand reduce with a maximum body along axis 1 of a `[p, n, a, b]` array of extended reals reads,
    at `(q, r, s)`, the fold of `max`, from the initial value's one element, over `k` of the entries `(q, k, r, s)`. -/
theorem hostMaxAxis1_apply {p n a b : ℕ} {u : Shape} (x : (⟨4, ![p, n, a, b]⟩ : Shape).Idx → Ideal .f32)
    (init : u.Idx → Ideal .f32) (h' : (⟨4, ![p, n, a, b]⟩ : Shape).ReducesTo [1] ⟨3, ![p, a, b]⟩)
    (h : (⟨4, ![p, n, a, b]⟩ : Shape).Reduces [1] ⟨3, ![p, a, b]⟩) (hu : 0 < u.numel) (q : Fin p) (r : Fin a) (s : Fin b) :
    Host.reduce FloatOps.maximumf x init h' hu (ix3 q r s)
      = (Finset.univ : Finset (Fin n)).fold max (init (Shape.Idx.first hu)) (fun k => x (ix4 q k r s)) := by
  refine (Host.reduce_eq_fold_single FloatOps.maximumf x init h' h hu (ix3 q r s)).trans ?_
  show (Finset.univ : Finset (Fin n)).fold max (init (Shape.Idx.first hu)) (x ∘ h.lift (ix3 q r s)) = _
  refine congrArg (fun f => Finset.fold max (init (Shape.Idx.first hu)) f (Finset.univ : Finset (Fin n)))
    (funext fun k => congrArg x (funext fun c => Fin.ext ?_))
  match c with
  | ⟨0, _⟩ => rfl
  | ⟨1, _⟩ => rfl
  | ⟨2, _⟩ => rfl
  | ⟨3, _⟩ => rfl

/-- The two trailing axes merged: an `[a, b, n]` array cast to `[a, m]`, `m = b·n`, reads, at `(r, j)` with
    `j = s·n + k`, the operand at `(r, s, k)`: the two indices have the same row-major position. -/
theorem shapeCast_abn_am_apply {a b n m : ℕ} (w : (⟨3, ![a, b, n]⟩ : Shape).Idx → α)
    (h : (⟨3, ![a, b, n]⟩ : Shape).ShapeCasts ⟨2, ![a, m]⟩) (hm : m = b * n) (r : Fin a) (s : Fin b) (k : Fin n)
    (j : Fin m) (hj : j.val = s.val * n + k.val) :
    shapeCast ⟨2, ![a, m]⟩ w h (ix2 r j) = w (ix3 r s k) :=
  shapeCast_apply w h _ _ (by
    rw [Shape.rowMajor_val_three, Shape.rowMajor_val_two]
    show (r.val * b + s.val) * n + k.val = r.val * m + j.val
    rw [hj, hm]; ring)

/-- The two leading axes of a rank-3 array exchanged: the result reads, at `(s, r, k)`, the operand at `(r, s, k)`. -/
theorem transpose_ix3_102_apply {a b n : ℕ} (x : (⟨3, ![a, b, n]⟩ : Shape).Idx → α)
    (h : (⟨3, ![a, b, n]⟩ : Shape).Transposes [1, 0, 2] ⟨3, ![b, a, n]⟩) (s : Fin b) (r : Fin a) (k : Fin n) :
    transpose ⟨3, ![b, a, n]⟩ [1, 0, 2] x h (ix3 s r k) = x (ix3 r s k) :=
  transpose_apply _ x h _ _ fun c => match c with | ⟨0, _⟩ => rfl | ⟨1, _⟩ => rfl | ⟨2, _⟩ => rfl

end Cert.PoolLayout
-- ==== Proof.LibOuterLayout.lean ====
/-
  Layout operations and reductions of an OUTER-PRODUCT body, read at coordinates.

  A body that multiplies every entry of one row by every entry of another builds an `[a, b, n]` array from two
  matrices: the first, `[a, b]`, is given a trailing unit axis and spread along the last axis; the second, `[a, n]`,
  is given a MIDDLE unit axis and spread along the middle axis. It then sums the product along one of the two
  trailing axes, and takes a row's maximum for a softmax. None of these computes anything but the sums and the
  maximum; the lemmas name, by coordinates, which entries each result reads:
    • `[a, n] → [a, 1, n]` (a shape cast): entry `(r, u, k)` is entry `(r, k)`, whatever the unit coordinate;
    • `[a, 1, n] → [a, b, n]` (a broadcast): entry `(r, s, k)` is entry `(r, 0, k)`;
    • their composite: `(r, s, k)` reads the matrix at `(r, k)`;
    • a sum along the LAST axis of an `[a, b, n]` array of extended reals: entry `(r, s)` is `∑ₖ` of `(r, s, k)`;
    • a sum along the MIDDLE axis: entry `(r, k)` is `∑ₛ` of `(r, s, k)`;
    • a maximum along the second axis of an `[a, b]` array, from the accumulator's value: entry `r` is the fold of
      `max` over `j` of the entries `(r, j)` — for a vector reduction and for the host's one-operand reduce alike.
  The trailing-unit-axis forms (`[a, b] → [a, b, 1] → [a, b, n]`) and the column forms are in their own files.
-/
import Idealize.ShloMosaic.Lib.Pipeline.Value
import Idealize.ShloMosaic.Lib.ValueIdx
import Idealize.ShloMosaic.PureOps.Ideal.Laws

namespace Cert.OuterLayout

open Idealize.ShloMosaic Idealize.ShloMosaic.ValueIdx

variable {α : Type}

/-- An `[a, n]` array cast to `[a, 1, n]` reads, at `(r, u, k)`, the operand at `(r, k)`: the two indices have the same
    row-major position, `(r·1 + u)·n + k = r·n + k` since `u = 0`. -/
theorem shapeCast_an_a1n_apply {a n : ℕ} (x : (⟨2, ![a, n]⟩ : Shape).Idx → α)
    (h : (⟨2, ![a, n]⟩ : Shape).ShapeCasts ⟨3, ![a, 1, n]⟩) (r : Fin a) (u : Fin 1) (k : Fin n) :
    shapeCast ⟨3, ![a, 1, n]⟩ x h (ix3 r u k) = x (ix2 r k) :=
  shapeCast_apply x h _ _ (by
    have hu : u.val = 0 := by omega
    rw [Shape.rowMajor_val_two, Shape.rowMajor_val_three]
    show r.val * n + k.val = (r.val * 1 + u.val) * n + k.val
    rw [hu, Nat.mul_one, Nat.add_zero])

/-- An `[a, 1, n]` array broadcast to `[a, b, n]` reads, at `(r, s, k)`, the operand at `(r, 0, k)`. -/
theorem broadcastTo_a1n_abn_apply {a b n : ℕ} (y : (⟨3, ![a, 1, n]⟩ : Shape).Idx → α)
    (h : (⟨3, ![a, 1, n]⟩ : Shape).Broadcasts ⟨3, ![a, b, n]⟩) (r : Fin a) (s : Fin b) (k : Fin n) :
    broadcastTo ⟨3, ![a, b, n]⟩ y h (ix3 r s k) = y (ix3 r (0 : Fin 1) k) := by
  refine broadcastTo_apply y h (ix3 r s k) (ix3 r (0 : Fin 1) k) fun ax => ?_
  match ax with
  | ⟨0, _⟩ =>
    show r.val = if a = 1 then 0 else r.val
    split
    · have := r.isLt; omega
    · rfl
  | ⟨1, _⟩ => rfl
  | ⟨2, _⟩ =>
    show k.val = if n = 1 then 0 else k.val
    split
    · have := k.isLt; omega
    · rfl

/-- An `[a, n]` matrix given a middle unit axis and broadcast along it: `(r, s, k)` reads the matrix at `(r, k)`. -/
theorem middle_apply {a b n : ℕ} (x : (⟨2, ![a, n]⟩ : Shape).Idx → α)
    (hc : (⟨2, ![a, n]⟩ : Shape).ShapeCasts ⟨3, ![a, 1, n]⟩) (hb : (⟨3, ![a, 1, n]⟩ : Shape).Broadcasts ⟨3, ![a, b, n]⟩)
    (r : Fin a) (s : Fin b) (k : Fin n) :
    broadcastTo ⟨3, ![a, b, n]⟩ (shapeCast ⟨3, ![a, 1, n]⟩ x hc) hb (ix3 r s k) = x (ix2 r k) :=
  (broadcastTo_a1n_abn_apply _ hb r s k).trans (shapeCast_an_a1n_apply x hc r 0 k)

/-- A sum along the last axis of an `[a, b, n]` array of extended reals, from the zero accumulator, reads at `(r, s)`
    the sum over `k` of the entries `(r, s, k)`. The last hypothesis says that the accumulator's word, zero, is the
    neutral word of addition. -/
theorem sumLast_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = FKind.add.neutral .f32 hφ) (r : Fin a) (s : Fin b) :
    multiReduction .add [2] ⟨2, ![a, b]⟩ src 0x00000000#32 h hφ hacc (ix2 r s) = ∑ k : Fin n, src (ix3 r s k) := by
  refine (Ideal.multiReduction_add_single src 0x00000000#32 h hφ hacc (ix2 r s)).trans ?_
  show ∑ k : Fin n, src (h.lift (ix2 r s) k) = ∑ k : Fin n, src (ix3 r s k)
  refine Finset.sum_congr rfl fun k _ => congrArg src (funext fun c => Fin.ext ?_)
  match c with
  | ⟨0, _⟩ => rfl
  | ⟨1, _⟩ => rfl
  | ⟨2, _⟩ => rfl

/-- A sum along the middle axis of an `[a, b, n]` array of extended reals, from the zero accumulator, reads at `(r, k)`
    the sum over `s` of the entries `(r, s, k)`. -/
theorem sumMiddle_apply {a b n : ℕ} (src : FVec Ideal ⟨3, ![a, b, n]⟩ .f32)
    (h : (⟨3, ![a, b, n]⟩ : Shape).Reduces [1] ⟨2, ![a, n]⟩) (hφ : FKind.Formats .f32)
    (hacc : (0x00000000#32 : BitVec 32) = FKind.add.neutral .f32 hφ) (r : Fin a) (k : Fin n) :
    multiReduction .add [1] ⟨2, ![a, n]⟩ src 0x00000000#32 h hφ hacc (ix2 r k) = ∑ s : Fin b, src (ix3 r s k) := by
  refine (Ideal.multiReduction_add_single src 0x00000000#32 h hφ hacc (ix2 r k)).trans ?_
  show ∑ s : Fin b, src (h.lift (ix2 r k) s) = ∑ s : Fin b, src (ix3 r s k)
  refine Finset.sum_congr rfl fun s _ => congrArg src (funext fun c => Fin.ext ?_)
  match c with
  | ⟨0, _⟩ => rfl
  | ⟨1, _⟩ => rfl
  | ⟨2, _⟩ => rfl

/-- A maximum along the second axis of an `[a, b]` array of extended reals reads, at `r`, the fold of `max`, from the
    value the accumulator's word denotes, over `j` of the entries `(r, j)`. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun j => src (ix2 r j)) := by
  refine (Ideal.multiReduction_maximumf_single src acc h hφ hacc (ix1 r)).trans ?_
  show (Finset.univ : Finset (Fin b)).fold max (Ideal.ofBits .f32 acc) (src ∘ h.lift (ix1 r)) = _
  refine congrArg (fun f => Finset.fold max (Ideal.ofBits .f32 acc) f (Finset.univ : Finset (Fin b)))
    (funext fun j => congrArg src (funext fun c => Fin.ext ?_))
  match c with
  | ⟨0, _⟩ => rfl
  | ⟨1, _⟩ => rfl

/-- The host's one-operand reduce with a maximum body along the second axis of an `[a, b]` array of extended reals
    reads, at `r`, the fold of `max`, from the initial value's one element, over `j` of the entries `(r, j)`: the same
    fold as the vector reduction's. -/
theorem hostRowMax_apply {a b : ℕ} {u : Shape} (x : (⟨2, ![a, b]⟩ : Shape).Idx → Ideal .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun j => x (ix2 r j)) := by
  refine (Host.reduce_eq_fold_single FloatOps.maximumf x init h' h hu (ix1 r)).trans ?_
  show (Finset.univ : Finset (Fin b)).fold max (init (Shape.Idx.first hu)) (x ∘ h.lift (ix1 r)) = _
  refine congrArg (fun f => Finset.fold max (init (Shape.Idx.first hu)) f (Finset.univ : Finset (Fin b)))
    (funext fun j => congrArg x (funext fun c => Fin.ext ?_))
  match c with
  | ⟨0, _⟩ => rfl
  | ⟨1, _⟩ => rfl

end Cert.OuterLayout
-- ==== Proof.LibRank3Layout.lean ====
/-
  Rank-3 layout operations read at coordinates — the forms a body meets when it compares every entry of an `[a, b]`
  block with every entry of a length-`n` vector and then flattens the two leading axes for a matrix product:

  • a TRAILING unit axis added by a shape cast, `[a, b] → [a, b, 1]` (`shapeCast_ab_ab1_apply`);
  • a vector laid along the LAST axis by a shape cast, `[n] → [1, 1, n]` (`shapeCast_n_11n_apply`);
  • the broadcast of the first along the last axis, `[a, b, 1] → [a, b, n]` (`broadcastTo_ab1_abn_apply`), and of the
    second along the two leading axes, `[1, 1, n] → [a, b, n]` (`broadcastTo_11n_abn_apply`);
  • the two composites, which read `(r, s, k)` at `(r, s)` of the block (`column_apply`) and at `k` of the vector
    (`row_apply`);
  • the two leading axes MERGED, `[a, b, n] → [m, n]` with `m = a·b`, and SPLIT again, `[m, d] → [a, b, d]`: row
    `j = r·b + s` of the flat array is row `(r, s)` of the stacked one (`shapeCast_abn_mn_apply`,
    `shapeCast_md_abd_apply`; the flat row is passed with the equation `j = r·b + s`, so that a literal extent such
    as `4096` need not be recognised as a product).

  Each is the library's `shapeCast_apply` (equal row-major positions) or `broadcastTo_apply` (a unit axis reads
  coordinate `0`) with both indices written by coordinates, at every extent.
-/
import Idealize.ShloMosaic.Lib.Pipeline.Value
import Idealize.ShloMosaic.Lib.ValueIdx

namespace Cert.Rank3Layout

open Idealize.ShloMosaic Idealize.ShloMosaic.ValueIdx

variable {α : Type}

/-- An `[a, b]` array cast to `[a, b, 1]` reads, at `(r, s, u)`, the operand at `(r, s)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (r : Fin a) (s : Fin b) (u : Fin 1) :
    shapeCast ⟨3, ![a, b, 1]⟩ x h (ix3 r s u) = x (ix2 r s) :=
  shapeCast_apply x h _ _ (by
    have hu : u.val = 0 := by omega
    rw [Shape.rowMajor_val_two, Shape.rowMajor_val_three]
    show r.val * b + s.val = (r.val * b + s.val) * 1 + u.val
    rw [hu, Nat.mul_one, Nat.add_zero])

/-- An `[n]` vector cast to `[1, 1, n]` reads, at `(u, u', k)`, the operand at `k`, whatever the unit coordinates. -/
theorem shapeCast_n_11n_apply {n : ℕ} (q : (⟨1, ![n]⟩ : Shape).Idx → α)
    (h : (⟨1, ![n]⟩ : Shape).ShapeCasts ⟨3, ![1, 1, n]⟩) (u u' : Fin 1) (k : Fin n) :
    shapeCast ⟨3, ![1, 1, n]⟩ q h (ix3 u u' k) = q (ix1 k) :=
  shapeCast_apply q h _ _ (by
    have hu : u.val = 0 := by omega
    have hu' : u'.val = 0 := by omega
    rw [Shape.rowMajor_val_one, Shape.rowMajor_val_three]
    show k.val = (u.val * 1 + u'.val) * n + k.val
    rw [hu, hu']; simp)

/-- An `[a, b, 1]` array broadcast to `[a, b, n]` reads, at `(r, s, k)`, the operand at `(r, s, 0)`. -/
theorem broadcastTo_ab1_abn_apply {a b n : ℕ} (y : (⟨3, ![a, b, 1]⟩ : Shape).Idx → α)
    (h : (⟨3, ![a, b, 1]⟩ : Shape).Broadcasts ⟨3, ![a, b, n]⟩) (r : Fin a) (s : Fin b) (k : Fin n) :
    broadcastTo ⟨3, ![a, b, n]⟩ y h (ix3 r s k) = y (ix3 r s (0 : Fin 1)) := by
  refine broadcastTo_apply y h (ix3 r s k) (ix3 r s (0 : Fin 1)) fun ax => ?_
  match ax with
  | ⟨0, _⟩ =>
    show r.val = if a = 1 then 0 else r.val
    split
    · have := r.isLt; omega
    · rfl
  | ⟨1, _⟩ =>
    show s.val = if b = 1 then 0 else s.val
    split
    · have := s.isLt; omega
    · rfl
  | ⟨2, _⟩ => rfl

/-- A `[1, 1, n]` array broadcast to `[a, b, n]` reads, at `(r, s, k)`, the operand at `(0, 0, k)`. -/
theorem broadcastTo_11n_abn_apply {a b n : ℕ} (q : (⟨3, ![1, 1, n]⟩ : Shape).Idx → α)
    (h : (⟨3, ![1, 1, n]⟩ : Shape).Broadcasts ⟨3, ![a, b, n]⟩) (r : Fin a) (s : Fin b) (k : Fin n) :
    broadcastTo ⟨3, ![a, b, n]⟩ q h (ix3 r s k) = q (ix3 (0 : Fin 1) (0 : Fin 1) k) := by
  refine broadcastTo_apply q h (ix3 r s k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- An `[a, b]` block given a trailing unit axis and broadcast along it: `(r, s, k)` reads the block at `(r, s)`. -/
theorem column_apply {a b n : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, n]⟩)
    (r : Fin a) (s : Fin b) (k : Fin n) :
    broadcastTo ⟨3, ![a, b, n]⟩ (shapeCast ⟨3, ![a, b, 1]⟩ x hc) hb (ix3 r s k) = x (ix2 r s) :=
  (broadcastTo_ab1_abn_apply _ hb r s k).trans (shapeCast_ab_ab1_apply x hc r s 0)

/-- A length-`n` vector laid along the last axis and broadcast over the two leading ones: `(r, s, k)` reads it at `k`. -/
theorem row_apply {a b n : ℕ} (q : (⟨1, ![n]⟩ : Shape).Idx → α)
    (hc : (⟨1, ![n]⟩ : Shape).ShapeCasts ⟨3, ![1, 1, n]⟩) (hb : (⟨3, ![1, 1, n]⟩ : Shape).Broadcasts ⟨3, ![a, b, n]⟩)
    (r : Fin a) (s : Fin b) (k : Fin n) :
    broadcastTo ⟨3, ![a, b, n]⟩ (shapeCast ⟨3, ![1, 1, n]⟩ q hc) hb (ix3 r s k) = q (ix1 k) :=
  (broadcastTo_11n_abn_apply _ hb r s k).trans (shapeCast_n_11n_apply q hc 0 0 k)

/-- The two leading axes merged: an `[a, b, n]` array cast to `[m, n]` reads, at `(j, k)` with `j = r·b + s`, the
    operand at `(r, s, k)`. -/
theorem shapeCast_abn_mn_apply {a b n m : ℕ} (w : (⟨3, ![a, b, n]⟩ : Shape).Idx → α)
    (h : (⟨3, ![a, b, n]⟩ : Shape).ShapeCasts ⟨2, ![m, n]⟩) (r : Fin a) (s : Fin b) (k : Fin n) (j : Fin m)
    (hj : j.val = r.val * b + s.val) :
    shapeCast ⟨2, ![m, n]⟩ w h (ix2 j k) = w (ix3 r s k) :=
  shapeCast_apply w h _ _ (by
    rw [Shape.rowMajor_val_three, Shape.rowMajor_val_two]
    show (r.val * b + s.val) * n + k.val = j.val * n + k.val
    rw [hj])

/-- The leading axis split in two: an `[m, d]` array cast to `[a, b, d]` reads, at `(r, s, e)`, the operand at `(j, e)`
    with `j = r·b + s`. -/
theorem shapeCast_md_abd_apply {a b d m : ℕ} (z : (⟨2, ![m, d]⟩ : Shape).Idx → α)
    (h : (⟨2, ![m, d]⟩ : Shape).ShapeCasts ⟨3, ![a, b, d]⟩) (r : Fin a) (s : Fin b) (e : Fin d) (j : Fin m)
    (hj : j.val = r.val * b + s.val) :
    shapeCast ⟨3, ![a, b, d]⟩ z h (ix3 r s e) = z (ix2 j e) :=
  shapeCast_apply z h _ _ (by
    rw [Shape.rowMajor_val_two, Shape.rowMajor_val_three]
    show j.val * d + e.val = (r.val * b + s.val) * d + e.val
    rw [hj])

end Cert.Rank3Layout
-- ==== Proof.RowPool.lean ====
/-
  One batch row of the kernel's body, read at coordinates.

  For each of the eight batch rows of its block the body does the same thing under eight printed names: it takes the
  row's `[2048, 64]` embedding matrix and `[2048, 16]` feature matrix, spreads the first along a new middle axis and the
  second along a new trailing axis to `[2048, 16, 64]`, multiplies, and takes the maximum over the 2048 cells. So the
  stored `[1, 16, 64]` piece holds, at `(·, f, e)`, the fold of `max` from the start value over the cells `n` of
  `feat (n, f) * emb (n, e)` — which is `emb (n, e) * feat (n, f)`, the product being commutative.
-/
import proofs.«145905_j24240795418963_2_alg».proof.Proof.Gen.KernelIdeal.Skeleton
import proofs.«145905_j24240795418963_2_alg».proof.Proof.Spec
import proofs.«145905_j24240795418963_2_alg».proof.Proof.LibPoolLayout
import proofs.«145905_j24240795418963_2_alg».proof.Proof.LibOuterLayout
import proofs.«145905_j24240795418963_2_alg».proof.Proof.LibRank3Layout
import Idealize.ShloMosaic.Lib.ValueLayout

noncomputable section

namespace Cert.KernelIdeal.BodyValue

open Cert.KernelIdeal Cert.KernelIdeal.Gen Idealize.ShloMosaic Idealize.ShloMosaic.ValueIdx

variable {F : FTy → Type} [FloatOps F]

/-- What the body computes from one batch row's embedding matrix `v` and feature matrix `w`: the pooled outer
    product, as the `[1, 16, 64]` piece it stores. -/
def rowPool (v : Vec F S1x2048x64 .f32) (w : Vec F S1x2048x16 .f32) : FVec F S1x16x64 .f32 :=
  shapeCast S1x16x64
    (multiReduction .maximumf [0] S16x64
      (mulf
        (broadcastTo S2048x16x64
          (shapeCast S2048x16x1 (shapeCast S2048x16 w shapeCasts_S1x2048x16_S2048x16) shapeCasts_S2048x16_S2048x16x1)
          broadcasts_S2048x16x1_S2048x16x64)
        (broadcastTo S2048x16x64
          (shapeCast S2048x1x64 (shapeCast S2048x64 v shapeCasts_S1x2048x64_S2048x64) shapeCasts_S2048x64_S2048x1x64)
          broadcasts_S2048x1x64_S2048x16x64))
      0xFF800000#32 reduces_S2048x16x64_S16x64 (.inl rfl) rfl)
    shapeCasts_S16x64_S1x16x64

/-! The eight printed payloads are that one function. -/
theorem pay3_eq (v : Vec F S1x2048x64 .f32) (w : Vec F S1x2048x16 .f32) : k0_pay3 v w = rowPool v w := rfl
theorem pay4_eq (v : Vec F S1x2048x64 .f32) (w : Vec F S1x2048x16 .f32) : k0_pay4 v w = rowPool v w := rfl
theorem pay6_eq (v : Vec F S1x2048x64 .f32) (w : Vec F S1x2048x16 .f32) : k0_pay6 (k0_pay5 v) w = rowPool v w := rfl
theorem pay7_eq (v : Vec F S1x2048x64 .f32) (w : Vec F S1x2048x16 .f32) : k0_pay7 v w = rowPool v w := rfl
theorem pay9_eq (v : Vec F S1x2048x64 .f32) (w : Vec F S1x2048x16 .f32) : k0_pay9 (k0_pay8 v w) = rowPool v w := rfl
theorem pay10_eq (v : Vec F S1x2048x64 .f32) (w : Vec F S1x2048x16 .f32) : k0_pay10 v w = rowPool v w := rfl
theorem pay11_eq (v : Vec F S1x2048x64 .f32) (w : Vec F S1x2048x16 .f32) : k0_pay11 v w = rowPool v w := rfl
theorem pay1_eq (v : Vec F S1x2048x64 .f32) (w : Vec F S1x2048x16 .f32) : k0_pay1 v w = rowPool v w := rfl

/-- The stored piece at `(u, f, e)`: the fold of `max`, from the start value, over the cells `n` of
    `emb (0, n, e) * feat (0, n, f)`. -/
theorem rowPool_apply (v : Vec Ideal S1x2048x64 .f32) (w : Vec Ideal S1x2048x16 .f32) (u : Fin 1) (f : Fin 16) (e : Fin 64) :
    rowPool v w (ix3 u f e)
      = (Finset.univ : Finset (Fin 2048)).fold max PoolDense.start
          (fun n => v (ix3 (0 : Fin 1) n e) * w (ix3 (0 : Fin 1) n f)) := by
  unfold rowPool
  refine (shapeCast_ab_1ab_apply _ shapeCasts_S16x64_S1x16x64 u f e).trans ?_
  refine (Cert.PoolLayout.leadMax_apply _ 0xFF800000#32 reduces_S2048x16x64_S16x64 (.inl rfl) rfl f e).trans ?_
  refine congrArg (fun g => Finset.fold max PoolDense.start g (Finset.univ : Finset (Fin 2048))) (funext fun n => ?_)
  refine (mulf_apply _ _ _).trans ?_
  refine (congrArg₂ (· * ·)
    ((Cert.Rank3Layout.column_apply _ shapeCasts_S2048x16_S2048x16x1 broadcasts_S2048x16x1_S2048x16x64 n f e).trans
      (shapeCast_1ab_ab_apply w shapeCasts_S1x2048x16_S2048x16 n f))
    ((Cert.OuterLayout.middle_apply _ shapeCasts_S2048x64_S2048x1x64 broadcasts_S2048x1x64_S2048x16x64 n f e).trans
      (shapeCast_1ab_ab_apply v shapeCasts_S1x2048x64_S2048x64 n e))).trans ?_
  exact mul_comm _ _

end Cert.KernelIdeal.BodyValue

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibLeadingAxisLayout.lean ====
/-
  Layout operations that add a LEADING unit axis and spread along it, read at coordinates, at every extent:

  • a stack of one matrix spread along the leading axis, `[1, b, n] → [a, b, n]`: entry `(r, s, k)` is entry
    `(0, s, k)` of the operand (`broadcastTo_1bn_abn_apply`);
  • a vector laid as one row and spread over `m` rows, `[n] → [1, n] → [m, n]`: entry `(j, v)` is the vector's
    entry `v` (`rows_apply`) — a bias added to every row of a matrix.

  Each is the library's `broadcastTo_apply` (a unit axis reads coordinate `0`) or its rank-2 forms composed, with
  both indices written by coordinates.
-/
import Idealize.ShloMosaic.Lib.Pipeline.Value
import Idealize.ShloMosaic.Lib.ValueIdx
import Idealize.ShloMosaic.Lib.ValueLayout

namespace Cert.LeadingAxisLayout

open Idealize.ShloMosaic Idealize.ShloMosaic.ValueIdx

variable {α : Type}

/-- A `[1, b, n]` array broadcast to `[a, b, n]` reads, at `(r, s, k)`, the operand at `(0, s, k)`. -/
theorem broadcastTo_1bn_abn_apply {a b n : ℕ} (y : (⟨3, ![1, b, n]⟩ : Shape).Idx → α)
    (h : (⟨3, ![1, b, n]⟩ : Shape).Broadcasts ⟨3, ![a, b, n]⟩) (r : Fin a) (s : Fin b) (k : Fin n) :
    broadcastTo ⟨3, ![a, b, n]⟩ y h (ix3 r s k) = y (ix3 (0 : Fin 1) s k) := by
  refine broadcastTo_apply y h (ix3 r s k) (ix3 (0 : Fin 1) s k) fun ax => ?_
  match ax with
  | ⟨0, _⟩ => rfl
  | ⟨1, _⟩ =>
    show s.val = if b = 1 then 0 else s.val
    split
    · have := s.isLt; omega
    · rfl
  | ⟨2, _⟩ =>
    show k.val = if n = 1 then 0 else k.val
    split
    · have := k.isLt; omega
    · rfl

/-- A vector laid as one row and spread over `m` rows reads, at `(j, v)`, the vector at `v`. -/
theorem rows_apply {m n : ℕ} (q : (⟨1, ![n]⟩ : Shape).Idx → α) (hc : (⟨1, ![n]⟩ : Shape).ShapeCasts ⟨2, ![1, n]⟩)
    (hb : (⟨2, ![1, n]⟩ : Shape).Broadcasts ⟨2, ![m, n]⟩) (j : Fin m) (v : Fin n) :
    broadcastTo ⟨2, ![m, n]⟩ (shapeCast ⟨2, ![1, n]⟩ q hc) hb (ix2 j v) = q (ix1 v) :=
  (broadcastTo_1b_ab_apply _ hb j v).trans (shapeCast_a_1a_apply q hc 0 v)

end Cert.LeadingAxisLayout
-- ==== Proof.DensePay.lean ====
/-
  The body's last step, read at coordinates.

  From the `[8, 16, 64]` scratch `S` (the eight pooled rows), the weight block `W` and the bias `B` it computes
  `flatten S · W + B`: the scratch flattened to `[8, 1024]` reads column `k` at `(f, e) = (k / 64, k % 64)` (equal
  row-major positions), the matrix product into the zero matrix is the plain sum over the 1024 columns, and the bias
  is laid as one row and spread over the eight rows. So at `(r, o)`:
    (∑ k, S (r, k / 64, k % 64) * W (k, o)) + B o.
-/
import proofs.«145905_j24240795418963_2_alg».proof.Proof.Gen.KernelIdeal.Skeleton
import proofs.«145905_j24240795418963_2_alg».proof.Proof.Spec
import proofs.«145905_j24240795418963_2_alg».proof.Proof.LibPoolLayout
import proofs.«145905_j24240795418963_2_alg».proof.Proof.LibPlainMatmul
import proofs.«145905_j24240795418963_2_alg».proof.Proof.LibLeadingAxisLayout

noncomputable section

namespace Cert.KernelIdeal.BodyValue

open Cert.KernelIdeal Cert.KernelIdeal.Gen Idealize.ShloMosaic Idealize.ShloMosaic.ValueIdx

/-- The printed contraction record is the plain one: rows times columns, no batch axis. -/
theorem dot_eq_plain : dot_S8x1024_S1024x10_S8x10_1_0_0_1_n_n = DotDims.plain 8 1024 10 := rfl

/-- The stored output block at `(r, o)`. -/
theorem pay2_apply (S : Vec Ideal S8x16x64 .f32) (W : Vec Ideal S1024x10 .f32) (B : Vec Ideal S10 .f32)
    (r : Fin 8) (o : Fin 10) :
    k0_pay2 S W B (ix2 r o)
      = (∑ k : Fin 1024, S (ix3 r (PoolDense.fOf' k) (PoolDense.eOf' k)) * W (ix2 k o)) + B (ix1 o) := by
  unfold k0_pay2
  refine (addf_apply _ _ _).trans ?_
  refine congrArg₂ (· + ·) ?_ ?_
  · show FloatOps.matmul dot_S8x1024_S1024x10_S8x10_1_0_0_1_n_n none _ _ (constant S8x10 .f32 0x00000000#32) (ix2 r o) = _
    rw [dot_eq_plain]
    refine (Cert.PlainMatmul.plain_apply (M := 8) (K := 1024) (N := 10) _ _ r o).trans ?_
    refine Finset.sum_congr rfl fun k _ => congrArg₂ (· * ·) ?_ ?_
    · exact Cert.PoolLayout.shapeCast_abn_am_apply S shapeCasts_S8x16x64_S8x1024 (by decide) r (PoolDense.fOf' k)
        (PoolDense.eOf' k) k (by show k.val = k.val / 64 * 64 + k.val % 64; omega)
    · exact congrFun (shapeCast_self W shapeCasts_S1024x10_S1024x10) (ix2 k o)
  · exact Cert.LeadingAxisLayout.rows_apply B shapeCasts_S10_S1x10 broadcasts_S1x10_S8x10 r o

end Cert.KernelIdeal.BodyValue

end
-- ==== Proof.Body.lean ====
/-
  What the body leaves in the output block, as a function of the four input blocks.

  The body's run found ONE covering store of the output block. Its payload reads the scratch back after eight row
  stores, row `k` holding the pooled outer product of batch row `k` of the embedding and feature blocks; the rows
  tile the scratch, and every row is the restriction of one function of the scratch index,
    scratch (r, f, e) = the fold of `max`, from the start value, over the cells `n` of  emb (r, n, e) * feat (r, n, f),
  so the scratch read back IS that function, whatever it held before. The output block is then the dense step of it.
-/
import proofs.«145905_j24240795418963_2_alg».proof.Proof.Gen.KernelIdeal.Frame
import proofs.«145905_j24240795418963_2_alg».proof.Proof.RowPool
import proofs.«145905_j24240795418963_2_alg».proof.Proof.DensePay
import Idealize.ShloMosaic.Lib.Pipeline.Value
import Idealize.ShloMosaic.Lib.Tactic

noncomputable section

namespace Cert.KernelIdeal.BodyValue

open Cert.KernelIdeal Cert.KernelIdeal.Gen Idealize.ShloMosaic Idealize.ShloMosaic.TcCoe Idealize.ShloMosaic.Tactic
open Idealize.ShloMosaic.ValueIdx Idealize.SL.Sem

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The pooled product of batch row `r` of the two blocks at `(f, e)`. -/
def cellMax (x0 : Vec Ideal S8x2048x64 .f32) (x1 : Vec Ideal S8x2048x16 .f32) (r : Fin 8) (f : Fin 16) (e : Fin 64) : EReal :=
  (Finset.univ : Finset (Fin 2048)).fold max PoolDense.start (fun n => x0 (ix3 r n e) * x1 (ix3 r n f))

/-- The scratch after the eight row stores, as one function of its index. -/
def scratch (x0 : Vec Ideal S8x2048x64 .f32) (x1 : Vec Ideal S8x2048x16 .f32) : Vec Ideal S8x16x64 .f32 :=
  fun j => cellMax x0 x1 ⟨(j 0).val, (j 0).isLt⟩ ⟨(j 1).val, (j 1).isLt⟩ ⟨(j 2).val, (j 2).isLt⟩

theorem scratch_apply (x0 : Vec Ideal S8x2048x64 .f32) (x1 : Vec Ideal S8x2048x16 .f32) (r : Fin 8) (f : Fin 16) (e : Fin 64) :
    scratch x0 x1 (ix3 r f e) = cellMax x0 x1 r f e := rfl

/-- The store of row `k` is the restriction of `scratch` to its rectangle: its payload, computed from row `k` of the
    two blocks, at a local index is `scratch` at that index placed in row `k`. -/
theorem row_piece (x0 : Vec Ideal S8x2048x64 .f32) (x1 : Vec Ideal S8x2048x16 .f32) (k : ℕ) (hk : k < 8)
    (inb0 : ∀ a, (![k, 0, 0] : Fin 3 → Nat) a + S1x2048x64.size a ≤ S8x2048x64.size a)
    (inb1 : ∀ a, (![k, 0, 0] : Fin 3 → Nat) a + S1x2048x16.size a ≤ S8x2048x16.size a)
    (inb6 : ∀ a, (![k, 0, 0] : Fin 3 → Nat) a + S1x16x64.size a ≤ S8x16x64.size a)
    (x : S1x16x64.Idx) :
    rowPool (View.ld x0 (Rect.unit (s := S8x2048x64) ![k, 0, 0] S1x2048x64.size inb0))
        (View.ld x1 (Rect.unit (s := S8x2048x16) ![k, 0, 0] S1x2048x16.size inb1)) x
      = scratch x0 x1 ((Rect.unit (s := S8x16x64) ![k, 0, 0] S1x16x64.size inb6).emb x) := by
  obtain ⟨u, f, e, rfl⟩ : ∃ (u : Fin 1) (f : Fin 16) (e : Fin 64), x = ix3 u f e := ⟨x 0, x 1, x 2, eq_ix3 x⟩
  refine (rowPool_apply _ _ u f e).trans ?_
  have hu : u.val = 0 := by omega
  unfold scratch cellMax
  refine congrArg (fun g => Finset.fold max PoolDense.start g (Finset.univ : Finset (Fin 2048))) (funext fun n => ?_)
  refine congrArg₂ (· * ·) (congrArg x0 (funext fun a => Fin.ext ?_)) (congrArg x1 (funext fun a => Fin.ext ?_))
  · match a with
    | ⟨0, _⟩ => show k + 1 * 0 = k + 1 * u.val; rw [hu]
    | ⟨1, _⟩ => show 0 + 1 * n.val = n.val; omega
    | ⟨2, _⟩ => show 0 + 1 * e.val = 0 + 1 * e.val; rfl
  · match a with
    | ⟨0, _⟩ => show k + 1 * 0 = k + 1 * u.val; rw [hu]
    | ⟨1, _⟩ => show 0 + 1 * n.val = n.val; omega
    | ⟨2, _⟩ => show 0 + 1 * f.val = 0 + 1 * f.val; rfl

/-- What the body leaves in the output's staging buffer: the dense step of the pooled scratch, the weight block and
    the bias block. -/
theorem body_value (c : Dev nD) (i : grid0.Coords) (arg1 : Memref sig .tc .vmem S8x2048x64 .f32) (harg1 : arg1.IsWhole) (arg2 : Memref sig .tc .vmem S8x2048x16 .f32) (harg2 : arg2.IsWhole) (arg3 : Memref sig .tc .vmem S1024x10 .f32) (harg3 : arg3.IsWhole) (arg4 : Memref sig .tc .vmem S10 .f32) (harg4 : arg4.IsWhole) (arg5 : Memref sig .tc .vmem S8x10 .f32) (harg5 : arg5.IsWhole) (arg6 : Memref sig .tc .vmem S8x16x64 .f32) (harg6 : arg6.IsWhole) (x0 : Vec Ideal S8x2048x64 .f32) (x1 : Vec Ideal S8x2048x16 .f32) (x2 : Vec Ideal S1024x10 .f32) (x3 : Vec Ideal S10 .f32) :
    out0_A_4 (F := Ideal) c i arg1 harg1 arg2 harg2 arg3 harg3 arg4 harg4 arg5 harg5 arg6 harg6 x0 x1 x2 x3
      = k0_pay2 (scratch x0 x1) x2 x3 := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  rw [View.canon_unit_zero hz2]
  simp only [View.readAt_eq_ld, harg1.read_unread, harg2.read_unread, harg3.read_unread, harg4.read_unread,
    View.ld_unit_zero (S := S1024x10) hz2, View.ld_unit_zero (S := S10) hz1,
    pay1_eq, pay3_eq, pay4_eq, pay6_eq, pay7_eq, pay9_eq, pay10_eq, pay11_eq]
  refine congrArg (fun s => k0_pay2 s x2 x3) ?_
  refine ((View.readCov_eq_canon' _ _ _).trans (View.ld_unit_zero (S := S8x16x64) hz3 _ _)).trans ?_
  funext y
  refine View.canon_apply_of_pieces (scratch x0 x1) _ ?_ y (View.cover_of_tiledL (s := S8x16x64) _ S1x16x64.size (by sl_kernel_rfl) y)
  intro p hp
  simp only [List.mem_cons, List.mem_nil_iff, or_false] at hp
  rcases hp with rfl | rfl | rfl | rfl | rfl | rfl | rfl | rfl
  · dsimp only
    exact row_piece x0 x1 7 (by decide) _ _ _
  · dsimp only
    exact row_piece x0 x1 6 (by decide) _ _ _
  · dsimp only
    exact row_piece x0 x1 5 (by decide) _ _ _
  · dsimp only
    exact row_piece x0 x1 4 (by decide) _ _ _
  · dsimp only
    exact row_piece x0 x1 3 (by decide) _ _ _
  · dsimp only
    exact row_piece x0 x1 2 (by decide) _ _ _
  · dsimp only
    exact row_piece x0 x1 1 (by decide) _ _ _
  · dsimp only
    exact row_piece x0 x1 0 (by decide) _ _ _

end Cert.KernelIdeal.BodyValue

end
-- ==== Proof.KernelValue.lean ====
/-
  The kernel's result array, as one function of the argument arrays.

  Before the region the host gathers the embedding rows and re-lays the weight matrix: its `[1024, 10]` rows, read as
  `[64, 16, 10]`, have their two leading axes exchanged and are flattened again, so row `k = 64 * f + e` of the re-laid
  matrix is row `16 * e + f` of the argument. The region has eight points; point `t` reads batch rows `8 * t … 8 * t + 7`
  of the gathered rows and of the features, the whole re-laid weight matrix and the whole bias, and writes rows
  `8 * t … 8 * t + 7` of the result. Block by block what it writes is the specification `PoolDense.G` read through the
  block (the dense step of the pooled scratch is the f-major form of `G`, `PoolDense.fMajor_eq`), the eight blocks
  tile the `[64, 10]` array, and so the array after the run is `G` of the gathered rows, the features, the weight
  matrix and the bias.
-/
import proofs.«145905_j24240795418963_2_alg».proof.Proof.Gen.KernelIdeal.Value
import proofs.«145905_j24240795418963_2_alg».proof.Proof.Body
import proofs.«145905_j24240795418963_2_alg».proof.Proof.LibRank3Layout
import proofs.«145905_j24240795418963_2_alg».proof.Proof.LibPoolLayout
import Idealize.ShloMosaic.Lib.StableHlo.Run

noncomputable section

namespace Cert.KernelIdeal.KernelValue

open Cert.KernelIdeal Cert.KernelIdeal.Gen Cert.KernelIdeal.BodyValue Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

/-! ## What the host leaves for the region -/

/-- The gathered embedding rows, as the host computes them from the ids (a negative id moved up by the table's
    length first) and the table. -/
abbrev gathered (ids : (⟨S64x2048, .i32⟩ : BufTy).Contents (Elt Ideal)) (table : (⟨S100000x64, .f32⟩ : BufTy).Contents (Elt Ideal)) :
    (⟨S64x2048x64, .f32⟩ : BufTy).Contents (Elt Ideal) :=
  Host.gather gather_S100000x64_S64x2048x1_S64x2048x64_2_0_n_n_0_2_164 table
    (broadcastInDim S64x2048x1 ![0, 1] bcast_S64x2048_S64x2048x1_0_1
      (select (cmpi .slt ids (broadcastInDim S64x2048 ![] bcast_S_S64x2048 (constantI S_ 32 0#32)))
        (addi ids (broadcastInDim S64x2048 ![] bcast_S_S64x2048 (constantI S_ 32 100000#32))) ids))

/-- The region finds the gathered rows in the first window's array. -/
theorem V_main_v6 (c : Dev nD) :
    (V m c main_v6 : S64x2048x64.Idx → EReal) = gathered (m ((c : Thread nD τ).loc main_arg0)) (m ((c : Thread nD τ).loc main_arg2)) := by
  dsimp only [Gen.V, Gen.hostOps0]; after_results <;> rfl

/-- The region finds the re-laid weight matrix in the third window's array. -/
theorem V_main_v9 (c : Dev nD) :
    (V m c main_v9 : S1024x10.Idx → EReal)
      = shapeCast S1024x10 (transpose S16x64x10 [1, 0, 2]
          (shapeCast S64x16x10 (m ((c : Thread nD τ).loc main_arg3)) shapeCasts_S1024x10_S64x16x10)
          transposes_S64x16x10_S16x64x10_1_0_2) shapeCasts_S16x64x10_S1024x10 := by
  dsimp only [Gen.V, Gen.hostOps0]; after_results <;> rfl

/-- Row `k = 64 * f + e` of the re-laid weight matrix is row `16 * e + f` of the argument. -/
theorem weights_apply (c : Dev nD) (k : Fin 1024) (o : Fin 10) :
    (V m c main_v9 : S1024x10.Idx → EReal) (ix2 k o) = (m ((c : Thread nD τ).loc main_arg3)) (ix2 (PoolDense.renumber k) o) := by
  rw [V_main_v9]
  refine (Cert.Rank3Layout.shapeCast_abn_mn_apply _ shapeCasts_S16x64x10_S1024x10 (PoolDense.fOf' k) (PoolDense.eOf' k) o k
    (by show k.val = k.val / 64 * 64 + k.val % 64; omega)).trans ?_
  refine (Cert.PoolLayout.transpose_ix3_102_apply _ transposes_S64x16x10_S16x64x10_1_0_2 (PoolDense.fOf' k) (PoolDense.eOf' k) o).trans ?_
  exact Cert.Rank3Layout.shapeCast_md_abd_apply _ shapeCasts_S1024x10_S64x16x10 (PoolDense.eOf' k) (PoolDense.fOf' k) o
    (PoolDense.renumber k) rfl

/-! ## The blocks a point reads -/

/-- The printed index maps, decided over the eight points: the two batched inputs and the output are on block `t` of
    their leading axis, the weight matrix and the bias on their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- The batch row that row `r` of point `t`'s blocks is. -/
abbrev bRow (t : Fin cfg0.N) (r : Fin 8) : Fin 64 :=
  ⟨8 * t.val + r.val, by have h : cfg0.N = 8 := N_0; have := t.isLt; have := r.isLt; omega⟩

theorem blk0_apply (c : Dev nD) (t : Fin cfg0.N) (r : Fin 8) (n : Fin 2048) (e : Fin 64) :
    iblk m c 0 t (ix3 r n e) = (V m c main_v6 : S64x2048x64.Idx → EReal) (ix3 (bRow t r) n e) := by
  obtain ⟨i0, i1, i2, -⟩ := idx_facts t
  show (V m c main_v6 : S64x2048x64.Idx → EReal) (((cfg0.win 0).blk t).view.emb (ix3 r n e)) = _
  refine congrArg (V m c main_v6 : S64x2048x64.Idx → EReal) (funext fun a => Fin.ext ?_)
  match a with
  | ⟨0, _⟩ => show win0_0.index t (0 : Fin 3) * 8 + 1 * r.val = 8 * t.val + r.val; omega
  | ⟨1, _⟩ => show win0_0.index t (1 : Fin 3) * 2048 + 1 * n.val = n.val; omega
  | ⟨2, _⟩ => show win0_0.index t (2 : Fin 3) * 64 + 1 * e.val = e.val; omega

theorem blk1_apply (c : Dev nD) (t : Fin cfg0.N) (r : Fin 8) (n : Fin 2048) (f : Fin 16) :
    iblk m c 1 t (ix3 r n f) = (V m c main_arg1 : S64x2048x16.Idx → EReal) (ix3 (bRow t r) n f) := by
  obtain ⟨-, -, -, i0, i1, i2, -⟩ := idx_facts t
  show (V m c main_arg1 : S64x2048x16.Idx → EReal) (((cfg0.win 1).blk t).view.emb (ix3 r n f)) = _
  refine congrArg (V m c main_arg1 : S64x2048x16.Idx → EReal) (funext fun a => Fin.ext ?_)
  match a with
  | ⟨0, _⟩ => show win0_1.index t (0 : Fin 3) * 8 + 1 * r.val = 8 * t.val + r.val; omega
  | ⟨1, _⟩ => show win0_1.index t (1 : Fin 3) * 2048 + 1 * n.val = n.val; omega
  | ⟨2, _⟩ => show win0_1.index t (2 : Fin 3) * 16 + 1 * f.val = f.val; omega

theorem blk2_apply (c : Dev nD) (t : Fin cfg0.N) (k : Fin 1024) (o : Fin 10) :
    iblk m c 2 t (ix2 k o) = (V m c main_v9 : S1024x10.Idx → EReal) (ix2 k o) := by
  obtain ⟨-, -, -, -, -, -, i0, i1, -⟩ := idx_facts t
  show (V m c main_v9 : S1024x10.Idx → EReal) (((cfg0.win 2).blk t).view.emb (ix2 k o)) = _
  refine congrArg (V m c main_v9 : S1024x10.Idx → EReal) (funext fun a => Fin.ext ?_)
  match a with
  | ⟨0, _⟩ => show win0_2.index t (0 : Fin 2) * 1024 + 1 * k.val = k.val; omega
  | ⟨1, _⟩ => show win0_2.index t (1 : Fin 2) * 10 + 1 * o.val = o.val; omega

theorem blk3_apply (c : Dev nD) (t : Fin cfg0.N) (o : Fin 10) :
    iblk m c 3 t (ix1 o) = (V m c main_arg4 : S10.Idx → EReal) (ix1 o) := by
  obtain ⟨-, -, -, -, -, -, -, -, i0, -⟩ := idx_facts t
  show (V m c main_arg4 : S10.Idx → EReal) (((cfg0.win 3).blk t).view.emb (ix1 o)) = _
  refine congrArg (V m c main_arg4 : S10.Idx → EReal) (funext fun a => Fin.ext ?_)
  match a with
  | ⟨0, _⟩ => show win0_3.index t (0 : Fin 1) * 10 + 1 * o.val = o.val; omega

/-! ## What a point writes back -/

/-- The result array: the specification of the gathered rows, the features, the weight matrix and the bias. -/
abbrev result (c : Dev nD) : Buf (Elt Ideal) ((c : Thread nD τ).loc main_v10) :=
  PoolDense.G (gathered (m ((c : Thread nD τ).loc main_arg0)) (m ((c : Thread nD τ).loc main_arg2))) (m ((c : Thread nD τ).loc main_arg1)) (m ((c : Thread nD τ).loc main_arg3)) (m ((c : Thread nD τ).loc main_arg4))

/-- After the body at point `t` the output's staging buffer holds the dense step of the pooled scratch of the point's
    blocks. -/
theorem outsAt_eq (c : Dev nD) (t : Fin cfg0.N) :
    outsAt0 (F := Ideal) m c t
      = k0_pay2 (scratch (iblk m c 0 t) (iblk m c 1 t)) (iblk m c 2 t) (iblk m c 3 t) := by
  unfold outsAt0
  exact body_value c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t)

/-- Entry `(r, o)` of that block is the result at batch row `8 * t + r`. -/
theorem point_value (c : Dev nD) (t : Fin cfg0.N) (r : Fin 8) (o : Fin 10) :
    k0_pay2 (scratch (iblk m c 0 t) (iblk m c 1 t)) (iblk m c 2 t) (iblk m c 3 t) (ix2 r o)
      = result m c (ix2 (bRow t r) o) := by
  refine (pay2_apply (scratch (iblk m c 0 t) (iblk m c 1 t)) (iblk m c 2 t) (iblk m c 3 t) r o).trans ?_
  refine Eq.trans ?_ (PoolDense.fMajor_eq (gathered (m ((c : Thread nD τ).loc main_arg0)) (m ((c : Thread nD τ).loc main_arg2))) (m ((c : Thread nD τ).loc main_arg1))
    (m ((c : Thread nD τ).loc main_arg3)) (m ((c : Thread nD τ).loc main_arg4)) (bRow t r) o)
  refine congrArg₂ (· + ·) (Finset.sum_congr rfl fun k _ => congrArg₂ (· * ·) ?_ ?_) ?_
  · show cellMax (iblk m c 0 t) (iblk m c 1 t) r (PoolDense.fOf' k) (PoolDense.eOf' k) = _
    unfold cellMax PoolDense.pooled
    refine congrArg (fun g => Finset.fold max PoolDense.start g (Finset.univ : Finset (Fin 2048))) (funext fun n => ?_)
    exact congrArg₂ (· * ·)
      ((blk0_apply m c t r n (PoolDense.eOf' k)).trans (congrFun (V_main_v6 m c) _))
      ((blk1_apply m c t r n (PoolDense.fOf' k)).trans (congrFun (V_main_arg1 m c) _))
  · exact (blk2_apply m c t k o).trans (weights_apply m c k o)
  · exact (blk3_apply m c t o).trans (congrFun (V_main_arg4 m c) _)

/-- So the block, as a function of its index, is the result read at the block's rows. -/
theorem point_fn (c : Dev nD) (t : Fin cfg0.N) :
    k0_pay2 (scratch (iblk m c 0 t) (iblk m c 1 t)) (iblk m c 2 t) (iblk m c 3 t)
      = fun j : S8x10.Idx => result m c (ix2 (bRow t ⟨(j 0).val, (j 0).isLt⟩) (⟨(j 1).val, (j 1).isLt⟩ : Fin 10)) := by
  funext j
  obtain ⟨r, o, rfl⟩ : ∃ (r : Fin 8) (o : Fin 10), j = ix2 r o := ⟨j 0, j 1, eq_ix2 j⟩
  exact point_value m c t r o

/-- WHAT POINT `t` WRITES BACK is block `t` of the result. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4, outsAt_eq, point_fn]
  obtain ⟨-, -, -, -, -, -, -, -, -, i0, i1⟩ := idx_facts t
  funext j
  show result m c (ix2 (bRow t ⟨(j 0).val, (j 0).isLt⟩) (⟨(j 1).val, (j 1).isLt⟩ : Fin 10))
    = result m c (((cfg0.win 4).blk t).view.emb j)
  refine congrArg (result m c) (funext fun a => Fin.ext ?_)
  match a with
  | ⟨0, _⟩ => show 8 * t.val + (j 0).val = win0_4.index t (0 : Fin 2) * 8 + 1 * (j 0).val; omega
  | ⟨1, _⟩ => show (j 1).val = win0_4.index t (1 : Fin 2) * 10 + 1 * (j 1).val; omega

/-! ## The array after the run -/

/-- An index of the array is in point `t`'s block iff each coordinate is in the block's range on its axis. -/
theorem mem_blk (t : Fin cfg0.N) (i : S64x10.Idx) :
    i ∈ ((cfg0.win 4).blk t).view.set
      ↔ ∀ a : Fin 2, win0_4.index t a * S8x10.size a ≤ (i a).val ∧ (i a).val < win0_4.index t a * S8x10.size a + S8x10.size a := by
  show i ∈ ((View.whole main_v10).slice (win0_4.rect t)).set ↔ _
  rw [View.set_slice_whole, Rect.mem_set_unit]
  exact Iff.rfl

/-- Every index of the array is in the block of the point that holds its row: point `row / 8`. -/
theorem cover (i : S64x10.Idx) : ∃ t : Fin cfg0.N, (cfg0.win 4).flush t = true ∧ i ∈ ((cfg0.win 4).blk t).view.set := by
  have hN : cfg0.N = 8 := N_0
  have h0 : (i 0).val < 64 := (i 0).isLt
  have h1 : (i 1).val < 10 := (i 1).isLt
  let t : Fin cfg0.N := ⟨(i 0).val / 8, by omega⟩
  have ht : t.val = (i 0).val / 8 := rfl
  obtain ⟨-, -, -, -, -, -, -, -, -, i0, i1⟩ := idx_facts t
  refine ⟨t, flush0_4 t, ?_⟩
  rw [mem_blk]
  intro a
  match a with
  | ⟨0, _⟩ =>
    show win0_4.index t (0 : Fin 2) * 8 ≤ (i 0).val ∧ (i 0).val < win0_4.index t (0 : Fin 2) * 8 + 8
    omega
  | ⟨1, _⟩ =>
    show win0_4.index t (1 : Fin 2) * 10 ≤ (i 1).val ∧ (i 1).val < win0_4.index t (1 : Fin 2) * 10 + 10
    omega

/-- THE ARRAY after the run is the result. -/
theorem final (c : Dev nD) : (dats m 0 c).arrAt 4 cfg0.N = result m c :=
  (dats m 0 c).arrAt_eq_of_cover 4 (result m c) (fun t _ => flushed_eq m c t) cover

/-- The frame run re-posted: the result array at the specification of the arguments, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KernelValue

end
-- ==== Proof.RefValue.lean ====
/-
  The reference's result, index by index, is the specification `PoolDense.G` of its gathered embedding rows, the
  features, the weight matrix and the bias.

  Reading its operations outermost first at `(b, o)`: the bias row spread over the batch reads `bias o`; the matrix
  product is `∑ j, flat (b, j) * w (j, o)`; the flattened pooled array reads `(b, j)` at `(b, j / 16, j % 16)` (equal
  row-major positions); the maximum along the cell axis is the fold of `max` from the start value over the cells; and
  the outer product, through its two spreads along a unit axis, reads `(b, n, e, f)` as `emb (b, n, e) * feat (b, n, f)`.
-/
import proofs.«145905_j24240795418963_2_alg».proof.Proof.Gen.ReferenceIdeal.Read
import proofs.«145905_j24240795418963_2_alg».proof.Proof.Spec
import proofs.«145905_j24240795418963_2_alg».proof.Proof.LibPoolLayout

noncomputable section

namespace Cert.ReferenceIdeal.RefValue

open Cert.ReferenceIdeal Cert.ReferenceIdeal.Gen Idealize.ShloMosaic Idealize.ShloMosaic.ValueIdx

variable (x0 : (⟨S64x2048, .i32⟩ : BufTy).Contents (Elt Ideal)) (x1 : (⟨S64x2048x16, .f32⟩ : BufTy).Contents (Elt Ideal))
  (x2 : (⟨S100000x64, .f32⟩ : BufTy).Contents (Elt Ideal)) (x3 : (⟨S1024x10, .f32⟩ : BufTy).Contents (Elt Ideal))
  (x4 : (⟨S10, .f32⟩ : BufTy).Contents (Elt Ideal))

/-- The outer product at `(b, n, e, f)`: the gathered row's entry `(b, n, e)` times the feature `(b, n, f)`. -/
theorem outer_apply (b : Fin 64) (n : Fin 2048) (e : Fin 64) (f : Fin 16) :
    Read.val_main_v11 (F := Ideal) x0 x1 x2 (ix4 b n e f)
      = Read.val_main_v6 (F := Ideal) x0 x2 (ix3 b n e) * x1 (ix3 b n f) := by
  rw [Read.val_main_v11_apply, Read.val_main_v9_apply, Read.val_main_v7_apply, Read.val_main_v10_apply,
    Read.val_main_v8_apply]
  have e1 : Read.idx_main_v7 (Read.idx_main_v9 (ix4 b n e f)) = ix3 b n e :=
    funext fun a => match a with | ⟨0, _⟩ => rfl | ⟨1, _⟩ => rfl | ⟨2, _⟩ => rfl
  have e2 : Read.idx_main_v8 (Read.idx_main_v10 (ix4 b n e f)) = ix3 b n f :=
    funext fun a => match a with | ⟨0, _⟩ => rfl | ⟨1, _⟩ => rfl | ⟨2, _⟩ => rfl
  rw [e1, e2]
  rfl

/-- The maximum along the cell axis at `(b, e, f)` is the pooled product. -/
theorem pooled_apply (b : Fin 64) (e : Fin 64) (f : Fin 16) :
    Read.val_main_v12 (F := Ideal) x0 x1 x2 (ix3 b e f)
      = PoolDense.pooled (Read.val_main_v6 (F := Ideal) x0 x2) x1 b e f := by
  unfold Read.val_main_v12 PoolDense.pooled
  refine (Cert.PoolLayout.hostMaxAxis1_apply (Read.val_main_v11 (F := Ideal) x0 x1 x2) (Read.val_main_cst (F := Ideal))
    reducesTo_S64x2048x64x16_S64x64x16_d1 (by decide) h_S_ b e f).trans ?_
  simp only [outer_apply]
  rfl

/-- The reference's result is the specification of its own gathered rows. -/
theorem result_eq :
    Read.val_main_v17 (F := Ideal) x0 x1 x2 x3 x4 = PoolDense.G (Read.val_main_v6 (F := Ideal) x0 x2) x1 x3 x4 := by
  funext i
  obtain ⟨b, o, rfl⟩ : ∃ (b : Fin 64) (o : Fin 10), i = ix2 b o := ⟨i 0, i 1, eq_ix2 i⟩
  rw [Read.val_main_v17_apply, Read.val_main_v14_apply, Read.val_main_v16_apply, Read.val_main_v15_apply]
  have er : ∀ k : Fin 1024, Read.ridx_main_v14 (ix2 b o) k = ix2 k o := fun k =>
    funext fun a => match a with | ⟨0, _⟩ => rfl | ⟨1, _⟩ => rfl
  have eb : Read.idx_main_v15 (Read.idx_main_v16 (ix2 b o)) = ix1 o :=
    funext fun a => match a with | ⟨0, _⟩ => rfl
  have el : ∀ k : Fin 1024, Read.val_main_v13 (F := Ideal) x0 x1 x2 (Read.lidx_main_v14 (ix2 b o) k)
      = PoolDense.pooled (Read.val_main_v6 (F := Ideal) x0 x2) x1 b (PoolDense.eOf k) (PoolDense.fOf k) := fun k => by
    rw [Read.val_main_v13_apply]
    have ei : Read.idx_main_v13 (Read.lidx_main_v14 (ix2 b o) k) = ix3 b (PoolDense.eOf k) (PoolDense.fOf k) :=
      funext fun a => Fin.ext (by
        have hb := b.isLt
        have hk := k.isLt
        match a with
        | ⟨0, _⟩ => show (b.val * 1024 + k.val) / 1024 = b.val; omega
        | ⟨1, _⟩ => show (b.val * 1024 + k.val) / 16 % 64 = k.val / 16; omega
        | ⟨2, _⟩ => show (b.val * 1024 + k.val) % 16 = k.val % 16; omega)
    rw [ei]
    exact pooled_apply x0 x1 x2 b _ _
  simp only [er, eb, el]
  rfl

end Cert.ReferenceIdeal.RefValue

end
-- ==== Proof.lean ====
/-
  The five claims about the pooled-outer-product kernel and its reference, assembled.

  Both programs compute, for a batch row `b` and an output column `o`,
    out b o = (∑ over the 1024 pairs (e, f) of  pooled b e f * w (16 * e + f) o) + bias o,
  where `pooled b e f` is the maximum, started from −∞, over the 2048 cells `n` of `emb b n e * feat b n f` and `emb`
  are the embedding rows the host gathers from the table by the ids (`PoolDense.G`, Proof/Spec.lean).

  • The reference computes exactly this, pairs numbered `16 * e + f` (Proof/RefValue.lean).
  • The kernel multiplies in the other order, keeps the pooled array `(f, e)`-major and contracts it against the
    weight matrix with its rows permuted to match, eight batch rows per grid point. A product of two extended reals
    does not depend on the order of its factors, a maximum over a finite set not on the order it is folded in, and a
    finite sum not on the numbering of its terms, so block by block it writes the same function, and its eight
    blocks tile the result (Proof/RowPool.lean, DensePay.lean, Body.lean, KernelValue.lean).
  None of the three laws needs an entry to be finite, so the precondition is never opened. Both programs gather by the
  same host operations of the same ids and table, so the two gathered arrays are one term once the arguments agree.

  The three frames: the two kernel programs' are their generated frame runs; the reference's is its generated run
  with the result dropped. The idealization rewrote no operation, so `preserves` is `True`.
-/
import proofs.«145905_j24240795418963_2_alg».proof.Defs
import proofs.«145905_j24240795418963_2_alg».proof.Proof.Gen.Kernel
import proofs.«145905_j24240795418963_2_alg».proof.Proof.Gen.Kernel.Skeleton
import proofs.«145905_j24240795418963_2_alg».proof.Proof.Gen.Kernel.Launch
import proofs.«145905_j24240795418963_2_alg».proof.Proof.Gen.Kernel.Points
import proofs.«145905_j24240795418963_2_alg».proof.Proof.Gen.Kernel.Frame
import proofs.«145905_j24240795418963_2_alg».proof.Proof.Gen.KernelIdeal
import proofs.«145905_j24240795418963_2_alg».proof.Proof.Gen.KernelIdeal.Skeleton
import proofs.«145905_j24240795418963_2_alg».proof.Proof.Gen.KernelIdeal.Launch
import proofs.«145905_j24240795418963_2_alg».proof.Proof.Gen.KernelIdeal.Points
import proofs.«145905_j24240795418963_2_alg».proof.Proof.Gen.KernelIdeal.Frame
import proofs.«145905_j24240795418963_2_alg».proof.Proof.Gen.ReferenceIdeal
import proofs.«145905_j24240795418963_2_alg».proof.Proof.Gen.Pre_finite_inputs
import proofs.«145905_j24240795418963_2_alg».proof.Proof.Gen.KernelIdeal.Value
import proofs.«145905_j24240795418963_2_alg».proof.Proof.Gen.ReferenceIdeal.Run
import proofs.«145905_j24240795418963_2_alg».proof.Proof.Gen.ReferenceIdeal.Read
import proofs.«145905_j24240795418963_2_alg».proof.Proof.KernelValue
import proofs.«145905_j24240795418963_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel's result array ends at `PoolDense.G` of its gathered rows, the features, the
    weight matrix and the bias, and the reference's at the same function of arguments that agree; the two gathered
    arrays are the same host operations of the same ids and table. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
